-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S10000x256 : Shape := ⟨2, ![10000, 256]⟩
abbrev S10000x16 : Shape := ⟨2, ![10000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S20000x16 : Shape := ⟨2, ![20000, 16]⟩
abbrev S20000x1 : Shape := ⟨2, ![20000, 1]⟩
abbrev S1x1 : Shape := ⟨2, ![1, 1]⟩

abbrev nBuf : Space → Nat
  | .hbm => 67
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000x16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x1, .f32⟩
  | .local _ .vmem, ⟨0, _⟩ => ⟨S10000x256, .f32⟩
  | .local _ .vmem, ⟨1, _⟩ => ⟨S10000x256, .f32⟩
  | .local _ .vmem, ⟨2, _⟩ => ⟨S256x16, .f32⟩
  | .local _ .vmem, ⟨3, _⟩ => ⟨S10000x16, .f32⟩
  | .local _ .vmem, ⟨4, _⟩ => ⟨S10000x16, .f32⟩
  | .local _ .vmem, ⟨5, _⟩ => ⟨S20000x16, .f32⟩
  | .local _ .vmem, ⟨6, _⟩ => ⟨S20000x16, .f32⟩
  | .local _ .vmem, ⟨7, _⟩ => ⟨S16x1, .f32⟩
  | .local _ .vmem, ⟨8, _⟩ => ⟨S1, .f32⟩
  | .local _ .vmem, ⟨9, _⟩ => ⟨S20000x1, .f32⟩
  | .local _ .vmem, ⟨10, _⟩ => ⟨S20000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  dot_S10000x256_S256x16_S10000x16_1_0_0_1_n_n_wf : DotDims.WF S10000x256 S256x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x1_S20000x1_1_0_0_1_n_n_wf : DotDims.WF S20000x16 S16x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x1.size a ≤ S100000x1.size a
  hwx1_3 : ∀ i : grid1.Coords, EltTy.bits .f32 = 32 ∨ (Rect.block (s := S100000x1) S20000x1.size (cc1_transform_3 i) (hinb1_3 i)).WholeWords (EltTy.packing .f32)

variable [Facts₀]

def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x1_S20000x1_1_0_0_1_n_n : DotDims S20000x16 S16x1 S20000x1 where
  lhsContracting := [1]
  rhsContracting := [0]
  lhsNonContracting := [0]
  rhsNonContracting := [1]
  lhsBatch := []
  rhsBatch := []
  wf := dot_S20000x16_S16x1_S20000x1_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S20000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x1, .f32⟩
  | .hbm, ⟨67, _⟩ => ⟨S1x1, .f32⟩
  | .hbm, ⟨68, _⟩ => ⟨S100000x1, .f32⟩
  | .hbm, ⟨69, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.DenseLayers.lean ====
/-
  The two dense layers of the network, as whole-array functions over the extended reals.

  `rowsTimes x w` is the matrix product of the node features `x` (100000 rows of 256) with the weights `w` (256 by 16):
  entry `(r, c)` is the sum over `k` of `x (r, k) * w (k, c)`. `affineHead y w b` is the regression head: entry `(r, 0)`
  is the sum over `k` of `y (r, k) * w (k, 0)`, plus the one bias entry `b 0`. Both are stated index by index, with the
  indices built from coordinates, and mention no program.
-/
import Idealize.ShloMosaic.PureOps.Ideal
import Idealize.ShloMosaic.Lib.ValueIdx

noncomputable section

namespace Cert.Dense

open Idealize.ShloMosaic Idealize.ShloMosaic.ValueIdx

/-- The product of a 100000 × 256 matrix with a 256 × 16 matrix, entry by entry. -/
def rowsTimes (x : FVec Ideal ⟨2, ![100000, 256]⟩ .f32) (w : FVec Ideal ⟨2, ![256, 16]⟩ .f32) :
    FVec Ideal ⟨2, ![100000, 16]⟩ .f32 :=
  fun i => ∑ k : Fin 256, x (ix2 (i 0) k) * w (ix2 k (i 1))

/-- The product of a 100000 × 16 matrix with a 16 × 1 matrix, plus one bias added to every entry. -/
def affineHead (y : FVec Ideal ⟨2, ![100000, 16]⟩ .f32) (w : FVec Ideal ⟨2, ![16, 1]⟩ .f32)
    (b : FVec Ideal ⟨1, ![1]⟩ .f32) : FVec Ideal ⟨2, ![100000, 1]⟩ .f32 :=
  fun i => (∑ k : Fin 16, y (ix2 (i 0) k) * w (ix2 k (i 1))) + b (ix1 0)

end Cert.Dense

end
-- ==== Proof.FeatureBlocks.lean ====
/-
  The first launch: `h = x · W`, computed in ten blocks of 10000 rows.

  At grid point `t` the body loads rows `10000 t … 10000 t + 9999` of `x` and the whole of `W`, multiplies them on the matrix
  unit into a zero accumulator and stores the 10000 × 16 result as block `t` of the output. At the extended reals the change
  of float format on the way in is the identity and the matrix unit's product into zero is the plain sum over the 256
  contracted entries, so what point `t` writes back is block `t` of ONE whole-array function, the matrix product
  `Dense.rowsTimes x W`; the ten blocks tile the 100000 rows, so the output array ends holding that product.
  Everything is stated for ANY contents `V` of the buffers at the launch's entry.
-/
import proofs.«117768_j63780264346286_2_alg».proof.Proof.Gen.KernelIdeal.Frame
import proofs.«117768_j63780264346286_2_alg».proof.Proof.DenseLayers
import Idealize.ShloMosaic.Lib.Pipeline.Value
import Idealize.ShloMosaic.Lib.ValueIdx
import Idealize.ShloMosaic.PureOps.Ideal.Laws

noncomputable section

namespace Cert.KernelIdeal.Features

open Cert.KernelIdeal Cert.KernelIdeal.Gen Idealize.ShloMosaic Idealize.ShloMosaic.TcCoe Idealize.ShloMosaic.ValueIdx
open Idealize.SL.Sem
open Idealize.ShloMosaic.Pipeline (Dat)

local notation "D0" => dot_S10000x256_S256x16_S10000x16_1_0_0_1_n_n

/-! ## The matrix unit's operand indices -/

/-- The left operand's row is the output's row. -/
theorem lhs_row (i : S10000x16.Idx) (q : (D0).contr.Idx) : ((D0).lhsIdx i q 0).val = (i 0).val := by
  unfold DotDims.lhsIdx
  rw [dif_neg (show ¬(0 : Fin S10000x256.rank) ∈ (D0).lhsBatch by decide),
    dif_pos (show (0 : Fin S10000x256.rank) ∈ (D0).lhsNonContracting by decide)]
  rfl
/-- The left operand's column is the contracted index. -/
theorem lhs_col (i : S10000x16.Idx) (q : (D0).contr.Idx) : ((D0).lhsIdx i q 1).val = (q ⟨0, by decide⟩).val :=
  (D0).lhsIdx_val_of_single rfl i q
/-- The right operand's row is the contracted index. -/
theorem rhs_row (i : S10000x16.Idx) (q : (D0).contr.Idx) : ((D0).rhsIdx i q 0).val = (q ⟨0, by decide⟩).val :=
  (D0).rhsIdx_val_of_single rfl i q
/-- The right operand's column is the output's column. -/
theorem rhs_col (i : S10000x16.Idx) (q : (D0).contr.Idx) : ((D0).rhsIdx i q 1).val = (i 1).val := by
  unfold DotDims.rhsIdx
  rw [dif_neg (show ¬(1 : Fin S256x16.rank) ∈ (D0).rhsBatch by decide),
    dif_pos (show (1 : Fin S256x16.rank) ∈ (D0).rhsNonContracting by decide)]
  rfl

/-! ## One block's product, entry by entry -/

/-- The body's stored value at `(p, q)`: the sum over `k` of the loaded rows at `(p, k)` times the loaded weights at `(k, q)`. -/
theorem block_product (x0 : Vec Ideal S10000x256 .f32) (x1 : Vec Ideal S256x16 .f32) (j : S10000x16.Idx) :
    k0_pay1 (F := Ideal) x0 x1 j = ∑ k : Fin 256, x0 (ix2 (j 0) k) * x1 (ix2 k (j 1)) := by
  unfold k0_pay1
  refine (Ideal.matmul_constant_zero_apply D0 none _ _ j).trans ?_
  rw [← Equiv.sum_comp (contrEquiv1 D0 256 rfl rfl).symm]
  refine Finset.sum_congr rfl fun k _ => ?_
  have hk := contrEquiv1_symm_val D0 256 rfl rfl k
  have el : (D0).lhsIdx j ((contrEquiv1 D0 256 rfl rfl).symm k) = ix2 (j 0) k := funext fun a => Fin.ext (by
    match a with
    | ⟨0, _⟩ => exact lhs_row _ _
    | ⟨1, _⟩ => exact (lhs_col _ _).trans hk)
  have er : (D0).rhsIdx j ((contrEquiv1 D0 256 rfl rfl).symm k) = ix2 k (j 1) := funext fun a => Fin.ext (by
    match a with
    | ⟨0, _⟩ => exact (rhs_row _ _).trans hk
    | ⟨1, _⟩ => exact rhs_col _ _)
  rw [el, er]
  rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten grid points: the rows window and the output window move together, block `t` at
    point `t`; the weights window and every column block index stay at zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the launch finds them. -/
theorem written_back (c : Dev nD) (t : Fin cfg0.N) :
    (dat0 V c).flushed 2 t
      = ((cfg0.win 2).blk t).view.read (Elt Ideal) (Dense.rowsTimes (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x256) zero_offsets, View.ld_unit_zero (S := S256x16) zero_offsets]
  obtain ⟨e0, e1, e2, e3, e4, e5⟩ := block_indices t
  funext j
  show k0_pay1 (F := Ideal) (iblk0 V c 0 t) (iblk0 V c 1 t) j
      = Dense.rowsTimes (V c main_arg0) (V c main_arg2) (((cfg0.win 2).blk t).view.emb j)
  refine (block_product (iblk0 V c 0 t) (iblk0 V c 1 t) j).trans ?_
  unfold Dense.rowsTimes
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 256 + 1 * k.val = k.val
      omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 16 + 1 * (j 1).val = win0_2.index t (1 : Fin 2) * 16 + 1 * (j 1).val
      omega
  rw [hx, hw]

/-- An index of the output is in point `t`'s block iff each coordinate is in the block's range on its axis. -/
theorem mem_block (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v0).slice (win0_2.rect t)).set ↔ _
  rw [View.set_slice_whole, Rect.mem_set_unit]
  exact Iff.rfl

/-- Every row lies in the block of the point its row number divided by 10000 names. -/
theorem blocks_cover (i : S100000x16.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 16 := (i 1).isLt
  let t : Fin cfg0.N := ⟨(i 0).val / 10000, by show (i 0).val / 10000 < grid0.N; rw [hN]; omega⟩
  obtain ⟨e0, e1, e2, e3, e4, e5⟩ := block_indices t
  have ht : t.val = (i 0).val / 10000 := rfl
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- THE ARRAY after the launch: the product of `x` and `W` as the launch found them. -/
theorem product_array (c : Dev nD) :
    (dat0 V c).arrAt 2 cfg0.N = Dense.rowsTimes (V c main_arg0) (V c main_arg2) :=
  (dat0 V c).arrAt_eq_of_cover 2 _ (fun t _ => written_back V c t) blocks_cover

end Cert.KernelIdeal.Features

end
-- ==== Proof.HeadBlocks.lean ====
/-
  The second launch: `final = out · W_fc + b_fc`, computed in five blocks of 20000 rows.

  At grid point `t` the body loads rows `20000 t … 20000 t + 19999` of `out`, the whole 16 × 1 weight column and the one
  bias entry, multiplies on the matrix unit into a zero accumulator, adds the bias broadcast down the column and stores the
  20000 × 1 result as block `t` of the output. At the extended reals that is block `t` of ONE whole-array function,
  `Dense.affineHead out W_fc b_fc`: entry `(r, 0)` is the sum over `k` of `out (r, k) * W_fc (k, 0)`, plus `b_fc 0`. The
  five blocks tile the 100000 rows, so the output array ends holding it. Stated for ANY contents `V` at the launch's entry.
-/
import proofs.«117768_j63780264346286_2_alg».proof.Proof.Gen.KernelIdeal.Frame
import proofs.«117768_j63780264346286_2_alg».proof.Proof.DenseLayers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Head

open Cert.KernelIdeal Cert.KernelIdeal.Gen Idealize.ShloMosaic Idealize.ShloMosaic.TcCoe Idealize.ShloMosaic.ValueIdx
open Idealize.SL.Sem
open Idealize.ShloMosaic.Pipeline (Dat)

local notation "D1" => dot_S20000x16_S16x1_S20000x1_1_0_0_1_n_n

/-! ## The matrix unit's operand indices -/

/-- The left operand's row is the output's row. -/
theorem lhs_row (i : S20000x1.Idx) (q : (D1).contr.Idx) : ((D1).lhsIdx i q 0).val = (i 0).val := by
  unfold DotDims.lhsIdx
  rw [dif_neg (show ¬(0 : Fin S20000x16.rank) ∈ (D1).lhsBatch by decide),
    dif_pos (show (0 : Fin S20000x16.rank) ∈ (D1).lhsNonContracting by decide)]
  rfl
/-- The left operand's column is the contracted index. -/
theorem lhs_col (i : S20000x1.Idx) (q : (D1).contr.Idx) : ((D1).lhsIdx i q 1).val = (q ⟨0, by decide⟩).val :=
  (D1).lhsIdx_val_of_single rfl i q
/-- The right operand's row is the contracted index. -/
theorem rhs_row (i : S20000x1.Idx) (q : (D1).contr.Idx) : ((D1).rhsIdx i q 0).val = (q ⟨0, by decide⟩).val :=
  (D1).rhsIdx_val_of_single rfl i q
/-- The right operand's column is the output's column. -/
theorem rhs_col (i : S20000x1.Idx) (q : (D1).contr.Idx) : ((D1).rhsIdx i q 1).val = (i 1).val := by
  unfold DotDims.rhsIdx
  rw [dif_neg (show ¬(1 : Fin S16x1.rank) ∈ (D1).rhsBatch by decide),
    dif_pos (show (1 : Fin S16x1.rank) ∈ (D1).rhsNonContracting by decide)]
  rfl

/-! ## One block's head, entry by entry -/

/-- The body's stored value at `(p, q)`: the sum over `k` of the loaded rows at `(p, k)` times the loaded column at `(k, q)`,
    plus the one loaded bias entry. -/
theorem block_head (x0 : Vec Ideal S20000x16 .f32) (x1 : Vec Ideal S16x1 .f32) (x2 : Vec Ideal S1 .f32)
    (p : Fin 20000) (q : Fin 1) :
    k1_pay1 (F := Ideal) x0 x1 x2 (ix2 p q) = (∑ k : Fin 16, x0 (ix2 p k) * x1 (ix2 k q)) + x2 (ix1 0) := by
  unfold k1_pay1
  rw [shapeCast_self]
  refine (addf_apply _ _ _).trans ?_
  refine congrArg₂ (· + ·) ?_ ?_
  · refine (Ideal.matmul_constant_zero_apply D1 none _ _ (ix2 p q)).trans ?_
    rw [← Equiv.sum_comp (contrEquiv1 D1 16 rfl rfl).symm]
    refine Finset.sum_congr rfl fun k _ => ?_
    have hk := contrEquiv1_symm_val D1 16 rfl rfl k
    have el : (D1).lhsIdx (ix2 p q) ((contrEquiv1 D1 16 rfl rfl).symm k) = ix2 p k := funext fun a => Fin.ext (by
      match a with
      | ⟨0, _⟩ => exact lhs_row _ _
      | ⟨1, _⟩ => exact (lhs_col _ _).trans hk)
    have er : (D1).rhsIdx (ix2 p q) ((contrEquiv1 D1 16 rfl rfl).symm k) = ix2 k q := funext fun a => Fin.ext (by
      match a with
      | ⟨0, _⟩ => exact (rhs_row _ _).trans hk
      | ⟨1, _⟩ => exact rhs_col _ _)
    rw [el, er]
    rfl
  · refine (broadcastTo_1b_ab_apply _ _ p q).trans ?_
    refine (shapeCast_a_1a_apply x2 _ (0 : Fin 1) q).trans ?_
    rw [Fin.fin_one_eq_zero q]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- The printed index maps over the five grid points: the rows window and the output window move together, block `t` at
    point `t`; the weight column, the bias and every column block index stay at zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the head of the arrays as the launch finds them. -/
theorem written_back (c : Dev nD) (t : Fin cfg1.N) :
    (dat1 V c).flushed 3 t
      = ((cfg1.win 3).blk t).view.read (Elt Ideal)
          (Dense.affineHead (V c main_v46) (V c main_arg4) (V c main_arg5)) := by
  show (cfg1.win 3).cut (grid1.coords t) ((dat1 V c).after 3 t) = _
  rw [after1_3]
  unfold out1_3
  rw [View.canon_unit_zero zero_offsets]
  simp only [View.ld_unit_zero (S := S20000x16) zero_offsets, View.ld_unit_zero (S := S16x1) zero_offsets,
    View.ld_unit_zero (S := S1) zero_offset]
  obtain ⟨e0, e1, e2, e3, e4, e5, e6⟩ := block_indices t
  funext j
  show k1_pay1 (F := Ideal) (iblk1 V c 0 t) (iblk1 V c 1 t) (iblk1 V c 2 t) j
      = Dense.affineHead (V c main_v46) (V c main_arg4) (V c main_arg5) (((cfg1.win 3).blk t).view.emb j)
  refine ((congrArg (k1_pay1 (F := Ideal) (iblk1 V c 0 t) (iblk1 V c 1 t) (iblk1 V c 2 t)) (eq_ix2 j)).trans
    (block_head (iblk1 V c 0 t) (iblk1 V c 1 t) (iblk1 V c 2 t) (j 0) (j 1))).trans ?_
  unfold Dense.affineHead
  have hb : iblk1 V c 2 t (ix1 0) = V c main_arg5 (ix1 0) := by
    show V c main_arg5 (((cfg1.win 2).blk t).view.emb (ix1 0)) = _
    refine congrArg (V c main_arg5) (funext fun a => Fin.ext ?_)
    match a with
    | ⟨0, _⟩ =>
      show win1_2.index t (0 : Fin 1) * 1 + 1 * 0 = 0
      omega
  rw [hb]
  refine congrArg (· + V c main_arg5 (ix1 0)) (Finset.sum_congr rfl fun k _ => ?_)
  have hy : iblk1 V c 0 t (ix2 (j 0) k) = V c main_v46 (ix2 ((((cfg1.win 3).blk t).view.emb j) 0) k) := by
    show V c main_v46 (((cfg1.win 0).blk t).view.emb (ix2 (j 0) k)) = _
    refine congrArg (V c main_v46) (funext fun a => Fin.ext ?_)
    match a with
    | ⟨0, _⟩ =>
      show win1_0.index t (0 : Fin 2) * 20000 + 1 * (j 0).val = win1_3.index t (0 : Fin 2) * 20000 + 1 * (j 0).val
      omega
    | ⟨1, _⟩ =>
      show win1_0.index t (1 : Fin 2) * 16 + 1 * k.val = k.val
      omega
  have hw : iblk1 V c 1 t (ix2 k (j 1)) = V c main_arg4 (ix2 k ((((cfg1.win 3).blk t).view.emb j) 1)) := by
    show V c main_arg4 (((cfg1.win 1).blk t).view.emb (ix2 k (j 1))) = _
    refine congrArg (V c main_arg4) (funext fun a => Fin.ext ?_)
    match a with
    | ⟨0, _⟩ =>
      show win1_1.index t (0 : Fin 2) * 16 + 1 * k.val = k.val
      omega
    | ⟨1, _⟩ =>
      show win1_1.index t (1 : Fin 2) * 1 + 1 * (j 1).val = win1_3.index t (1 : Fin 2) * 1 + 1 * (j 1).val
      omega
  rw [hy, hw]

/-- An index of the output is in point `t`'s block iff each coordinate is in the block's range on its axis. -/
theorem mem_block (t : Fin cfg1.N) (i : S100000x1.Idx) :
    i ∈ ((cfg1.win 3).blk t).view.set ↔ ∀ a : Fin 2, win1_3.index t a * S20000x1.size a ≤ (i a).val
      ∧ (i a).val < win1_3.index t a * S20000x1.size a + S20000x1.size a := by
  show i ∈ ((View.whole main_v47).slice (win1_3.rect t)).set ↔ _
  rw [View.set_slice_whole, Rect.mem_set_unit]
  exact Iff.rfl

/-- Every row lies in the block of the point its row number divided by 20000 names. -/
theorem blocks_cover (i : S100000x1.Idx) :
    ∃ t : Fin cfg1.N, (cfg1.win 3).flush t = true ∧ i ∈ ((cfg1.win 3).blk t).view.set := by
  have hN : grid1.N = 5 := N_1
  have hi0 : (i 0).val < 100000 := (i 0).isLt
  have hi1 : (i 1).val < 1 := (i 1).isLt
  let t : Fin cfg1.N := ⟨(i 0).val / 20000, by show (i 0).val / 20000 < grid1.N; rw [hN]; omega⟩
  obtain ⟨e0, e1, e2, e3, e4, e5, e6⟩ := block_indices t
  have ht : t.val = (i 0).val / 20000 := rfl
  refine ⟨t, flush1_3 t, ?_⟩
  rw [mem_block]
  intro a
  match a with
  | ⟨0, _⟩ =>
    show win1_3.index t (0 : Fin 2) * 20000 ≤ (i 0).val ∧ (i 0).val < win1_3.index t (0 : Fin 2) * 20000 + 20000
    omega
  | ⟨1, _⟩ =>
    show win1_3.index t (1 : Fin 2) * 1 ≤ (i 1).val ∧ (i 1).val < win1_3.index t (1 : Fin 2) * 1 + 1
    omega

/-- THE ARRAY after the launch: the head of `out`, `W_fc` and `b_fc` as the launch found them. -/
theorem head_array (c : Dev nD) :
    (dat1 V c).arrAt 3 cfg1.N = Dense.affineHead (V c main_v46) (V c main_arg4) (V c main_arg5) :=
  (dat1 V c).arrAt_eq_of_cover 3 _ (fun t _ => written_back V c t) blocks_cover

end Cert.KernelIdeal.Head

end
-- ==== Proof.Aggregation.lean ====
/-
  The graph convolution's aggregation step, as ONE function of the transformed features `h`, the edge list `e` and the
  bias `b`. It is the stretch of host operations that both programs run between their two dense layers, spelt once:

    * the edge list with one self loop per node appended (`sources`, `targets`), a negative node number counting from
      the end (`wrapped`);
    * `degree`: for every node the number of edges arriving at it, a scatter-add of ones;
    * `invSqrtDegree`: `1 / sqrt(degree)` where the degree is positive, zero elsewhere;
    * `edgeWeightsOf`: per edge the product of that quantity at its two ends;
    * `messagesOf`: per edge the source's row of `h` scaled by the edge's weight;
    * `aggregateOf`: the messages summed into their target's row, plus the bias on every row;
    * `aggregate`: all of it from the edge list.

  Nothing below is ever opened by the proof: the two programs agree on this stretch operation for operation, and all the
  proof uses is that both apply THIS function.
-/
import proofs.«117768_j63780264346286_2_alg».proof.Proof.Gen.KernelIdeal
import Idealize.ShloMosaic.PureOps.Ideal

noncomputable section

namespace Cert.KernelIdeal.Aggregation

open Cert.KernelIdeal Cert.KernelIdeal.Gen Idealize.ShloMosaic

/-- The source node of every edge: row 0 of the edge list, then one self loop per node. -/
def sources (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target node of every edge: row 1 of the edge list, then one self loop per node. -/
def targets (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end: 100000 is added to it. -/
def wrapped (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- A vector of node numbers as the one-column index array a gather or a scatter takes. -/
def column (v : IVec S3300000 32) : IVec S3300000x1 32 :=
  broadcastInDim S3300000x1 ![0] bcast_S3300000_S3300000x1_0 v

/-- For every node the number of edges arriving at it (self loop included): ones scatter-added at the targets. -/
def degree (e : IVec S2x3200000 32) : FVec Ideal S100000 .f32 :=
  Host.scatterAdd (F := Ideal) scatter_S100000_S3300000x1_S3300000_n_0_0_1 (broadcastInDim S100000 ![] bcast_S_S100000 (constant (F := Ideal) S_ .f32 0x00000000#32)) (column (targets e)) (broadcastInDim S3300000 ![] bcast_S_S3300000 (constant (F := Ideal) S_ .f32 0x3F800000#32))

/-- Where the degree is positive. -/
def positiveDegree (e : IVec S2x3200000 32) : IVec S100000 1 :=
  cmpf (F := Ideal) .ogt (degree e) (broadcastInDim S100000 ![] bcast_S_S100000 (constant (F := Ideal) S_ .f32 0x00000000#32))

/-- `1 / sqrt(degree)`, node by node. -/
def rsqrtDegree (e : IVec S2x3200000 32) : FVec Ideal S100000 .f32 :=
  Host.rsqrt (F := Ideal) (degree e)

/-- The choice `where(c, a, z)` with the scalar `z` broadcast over the nodes. -/
def whereElse (c : IVec S100000 1) (a : FVec Ideal S100000 .f32) (z : FVec Ideal S_ .f32) : FVec Ideal S100000 .f32 :=
  select c a (broadcastInDim S100000 ![] bcast_S_S100000 (id z))

/-- `1 / sqrt(degree)` where the degree is positive, zero elsewhere. -/
def invSqrtDegree (e : IVec S2x3200000 32) : FVec Ideal S100000 .f32 :=
  whereElse (positiveDegree e) (rsqrtDegree e) (constant (F := Ideal) S_ .f32 0x00000000#32)

/-- Per edge, the product of the per-node quantity `dinv` at its source and at its target. -/
def edgeWeightsOf (dinv : FVec Ideal S100000 .f32) (src dst : IVec S3300000 32) : FVec Ideal S3300000 .f32 :=
  mulf (Host.gather gather_S100000_S3300000x1_S3300000_n_0_n_n_0_1_1 dinv (column (wrapped src))) (Host.gather gather_S100000_S3300000x1_S3300000_n_0_n_n_0_1_1 dinv (column (wrapped dst)))

/-- Per edge, the source's row of `h` scaled by the edge's weight. -/
def messagesOf (h : FVec Ideal S100000x16 .f32) (dinv : FVec Ideal S100000 .f32) (src dst : IVec S3300000 32) :
    FVec Ideal S3300000x16 .f32 :=
  mulf (Host.gather gather_S100000x16_S3300000x1_S3300000x16_1_0_n_n_0_1_116 h (column (wrapped src))) (broadcastInDim S3300000x16 ![0, 1] bcast_S3300000x1_S3300000x16_0_1 (broadcastInDim S3300000x1 ![0] bcast_S3300000_S3300000x1_0 (edgeWeightsOf dinv src dst)))

/-- The messages summed into their target's row, plus the bias on every row. -/
def aggregateOf (h : FVec Ideal S100000x16 .f32) (dinv : FVec Ideal S100000 .f32) (src dst : IVec S3300000 32)
    (b : FVec Ideal S16 .f32) : FVec Ideal S100000x16 .f32 :=
  addf (Host.scatterAdd (F := Ideal) scatter_S100000x16_S3300000x1_S3300000x16_1_0_0_1 (broadcastInDim S100000x16 ![] bcast_S_S100000x16 (constant (F := Ideal) S_ .f32 0x00000000#32)) (column dst) (messagesOf h dinv src dst)) (broadcastInDim S100000x16 ![0, 1] bcast_S1x16_S100000x16_0_1 (broadcastInDim S1x16 ![1] bcast_S16_S1x16_1 b))

/-- The whole aggregation from the edge list. -/
def aggregate (h : FVec Ideal S100000x16 .f32) (e : IVec S2x3200000 32) (b : FVec Ideal S16 .f32) :
    FVec Ideal S100000x16 .f32 :=
  aggregateOf h (invSqrtDegree e) (sources e) (targets e) b

end Cert.KernelIdeal.Aggregation

end
-- ==== Proof.BetweenLaunches.lean ====
/-
  Between the two launches the kernel's @main runs three stretches of host operations. Read one stretch at a time, from
  ANY contents of the buffers when the stretch starts:

    * the first builds the edge list with its self loops, the degrees, the test "degree positive" and the reciprocal
      square roots, and leaves the first launch's output and the bias alone;
    * the second is the `where` that puts zero where the degree is not positive;
    * the third gathers, multiplies, scatter-adds and adds the bias.

  Composed, the buffer the second launch reads its rows from ends holding `Aggregation.aggregate` of the first launch's
  output, the edge list and the bias.
-/
import proofs.«117768_j63780264346286_2_alg».proof.Proof.Gen.KernelIdeal.Launch
import proofs.«117768_j63780264346286_2_alg».proof.Proof.Aggregation
import Idealize.ShloMosaic.Lib.StableHlo.Run

noncomputable section

namespace Cert.KernelIdeal.Aggregation

open Cert.KernelIdeal Cert.KernelIdeal.Gen Idealize.ShloMosaic Idealize.ShloMosaic.TcCoe Idealize.SL.Sem
open Idealize.ShloMosaic.StableHlo

variable (W : Valuation τ sig (Elt Ideal))

/-! ## The first stretch: the edge list, the degrees, the test and the reciprocal square roots -/

theorem first_sources : after (hostOps1 (F := Ideal)) W (Proc.devRef .tc main_v4) = sources (W (Proc.devRef .tc main_arg1)) := by
  simp only [hostOps1]; after_results_simp; rfl
theorem first_targets : after (hostOps1 (F := Ideal)) W (Proc.devRef .tc main_v7) = targets (W (Proc.devRef .tc main_arg1)) := by
  simp only [hostOps1]; after_results_simp; rfl
theorem first_positive : after (hostOps1 (F := Ideal)) W (Proc.devRef .tc main_v13) = positiveDegree (W (Proc.devRef .tc main_arg1)) := by
  simp only [hostOps1]; after_results_simp; rfl
theorem first_rsqrt : after (hostOps1 (F := Ideal)) W (Proc.devRef .tc main_v14) = rsqrtDegree (W (Proc.devRef .tc main_arg1)) := by
  simp only [hostOps1]; after_results_simp; rfl
theorem first_zero : after (hostOps1 (F := Ideal)) W (Proc.devRef .tc main_cst_2) = constant (F := Ideal) S_ .f32 0x00000000#32 := by
  simp only [hostOps1]; after_results_simp
theorem first_keeps_features : after (hostOps1 (F := Ideal)) W (Proc.devRef .tc main_v0) = W (Proc.devRef .tc main_v0) := by
  simp only [hostOps1]; after_results_simp
theorem first_keeps_bias : after (hostOps1 (F := Ideal)) W (Proc.devRef .tc main_arg3) = W (Proc.devRef .tc main_arg3) := by
  simp only [hostOps1]; after_results_simp

/-! ## The second stretch: zero where the degree is not positive -/

theorem second_where : after (hostOps1_1 (F := Ideal)) W (Proc.devRef .tc main_v15)
    = whereElse (W (Proc.devRef .tc main_v13)) (W (Proc.devRef .tc main_v14)) (W (Proc.devRef .tc main_cst_2)) := by
  simp only [hostOps1_1]; after_results_simp; rfl
theorem second_keeps_sources : after (hostOps1_1 (F := Ideal)) W (Proc.devRef .tc main_v4) = W (Proc.devRef .tc main_v4) := by
  simp only [hostOps1_1]; after_results_simp
theorem second_keeps_targets : after (hostOps1_1 (F := Ideal)) W (Proc.devRef .tc main_v7) = W (Proc.devRef .tc main_v7) := by
  simp only [hostOps1_1]; after_results_simp
theorem second_keeps_features : after (hostOps1_1 (F := Ideal)) W (Proc.devRef .tc main_v0) = W (Proc.devRef .tc main_v0) := by
  simp only [hostOps1_1]; after_results_simp
theorem second_keeps_bias : after (hostOps1_1 (F := Ideal)) W (Proc.devRef .tc main_arg3) = W (Proc.devRef .tc main_arg3) := by
  simp only [hostOps1_1]; after_results_simp

/-! ## The third stretch: gather, scale, scatter-add, add the bias -/

set_option maxHeartbeats 4000000 in
theorem third_aggregates : after (hostOps1_2 (F := Ideal)) W (Proc.devRef .tc main_v46)
    = aggregateOf (W (Proc.devRef .tc main_v0)) (W (Proc.devRef .tc main_v15)) (W (Proc.devRef .tc main_v4)) (W (Proc.devRef .tc main_v7)) (W (Proc.devRef .tc main_arg3)) := by
  simp only [hostOps1_2]; after_results_simp; rfl

/-! ## The three composed -/

/-- The three host stretches, from any contents `W`, leave `aggregate` of three of `W`'s buffers in `main_v46`. -/
theorem between :
    after (hostOps1_2 (F := Ideal)) (after (hostOps1_1 (F := Ideal)) (after (hostOps1 (F := Ideal)) W)) (Proc.devRef .tc main_v46)
      = aggregate (W (Proc.devRef .tc main_v0)) (W (Proc.devRef .tc main_arg1)) (W (Proc.devRef .tc main_arg3)) := by
  rw [third_aggregates, second_keeps_features, second_where, second_keeps_sources, second_keeps_targets, second_keeps_bias,
    first_keeps_features, first_positive, first_rsqrt, first_zero, first_sources, first_targets, first_keeps_bias]
  rfl

end Cert.KernelIdeal.Aggregation

end
-- ==== Proof.KernelRun.lean ====
/-
  The idealized kernel's whole run, with its result named.

  @main is: the first launch (`h = x · W` in ten row blocks), three stretches of host operations (the aggregation), the
  second launch (`out · W_fc + b_fc` in five row blocks). The buffers' contents at the five boundaries are a fold from the
  launch memory; at the last boundary the result buffer holds what the second launch's write-backs leave. Reading that
  fold from the end: the second launch's output array is `Dense.affineHead` of its three input arrays as it finds them
  (`Head.head_array`); the rows it reads are `Aggregation.aggregate` of the first launch's output, the edge list and the
  bias (`Aggregation.between`); the first launch's output is `Dense.rowsTimes x W` (`Features.product_array`); and no
  operation on the way writes an argument. So the result is

      affineHead (aggregate (rowsTimes x W) edge_index b_conv) W_fc b_fc

  of the argument arrays at launch.
-/
import proofs.«117768_j63780264346286_2_alg».proof.Proof.Gen.KernelIdeal.Frame
import proofs.«117768_j63780264346286_2_alg».proof.Proof.FeatureBlocks
import proofs.«117768_j63780264346286_2_alg».proof.Proof.HeadBlocks
import proofs.«117768_j63780264346286_2_alg».proof.Proof.BetweenLaunches

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over @main's five segments, the last thread state read against the
    final state at the result buffer as well as at the arguments. -/
theorem run_named : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Whole

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the result buffer holds at the last boundary: the regression head of the aggregated product of `x` and `W`. -/
theorem result_value (c : Dev nD) :
    W5 m ρ c (Proc.devRef .tc main_v47)
      = Dense.affineHead
          (Aggregation.aggregate
            (Dense.rowsTimes (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)) (m ((c.tc : Thread nD τ).loc main_arg5)) := by
  -- the first launch's output, and the two arguments the host stretches read, at the first launch's exit
  have h0 : W1 m ρ c (Proc.devRef .tc main_v0)
      = Dense.rowsTimes (m ((c.tc : Thread nD τ).loc main_arg0)) (m ((c.tc : Thread nD τ).loc main_arg2)) :=
    (W1_arr m ρ c 2).trans (Features.product_array (V0 m ρ) c)
  have h1 : W1 m ρ c (Proc.devRef .tc main_arg1) = m ((c.tc : Thread nD τ).loc main_arg1) :=
    W1_of_ne m ρ c main_arg1 (by decide)
  have h3 : W1 m ρ c (Proc.devRef .tc main_arg3) = m ((c.tc : Thread nD τ).loc main_arg3) :=
    W1_of_ne m ρ c main_arg3 (by decide)
  -- the rows the second launch reads
  have hout : V4 m ρ c main_v46
      = Aggregation.aggregate
          (Dense.rowsTimes (m ((c.tc : Thread nD τ).loc main_arg0)) (m ((c.tc : Thread nD τ).loc main_arg2)))
          (m ((c.tc : Thread nD τ).loc main_arg1)) (m ((c.tc : Thread nD τ).loc main_arg3)) := by
    refine (Aggregation.between (W1 m ρ c)).trans ?_
    rw [h0, h1, h3]
  -- its weight column and its bias are the arguments: an input window's array is not changed by its launch
  have h4 : V4 m ρ c main_arg4 = m ((c.tc : Thread nD τ).loc main_arg4) :=
    ((W5_arr m ρ c 1).trans (((dat1 (V4 m ρ) c).arrAt_in 1 rfl _).trans (A_eq1 (V4 m ρ) c 1))).symm.trans
      (W5_main_arg4 m ρ c)
  have h5 : V4 m ρ c main_arg5 = m ((c.tc : Thread nD τ).loc main_arg5) :=
    ((W5_arr m ρ c 2).trans (((dat1 (V4 m ρ) c).arrAt_in 2 rfl _).trans (A_eq1 (V4 m ρ) c 2))).symm.trans
      (W5_main_arg5 m ρ c)
  refine (W5_arr m ρ c 3).trans ((Head.head_array (V4 m ρ) c).trans ?_)
  rw [hout, h4, h5]

/-- The run with the result at its value: every weakly fair execution terminates with the result buffer at the network's
    output of the argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v47)
        = Dense.affineHead
            (Aggregation.aggregate
              (Dense.rowsTimes (m ((c.tc : Thread nD τ).loc main_arg0)) (m ((c.tc : Thread nD τ).loc main_arg2)))
              (m ((c.tc : Thread nD τ).loc main_arg1)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (result_value m ρ c), (h c).2⟩) (run_named m ρ)

end Cert.KernelIdeal.Whole

end
-- ==== Proof.ReferenceValue.lean ====
/-
  The reference's result is the same function of the arguments.

  The generated run ends the reference's result buffer at one long composed term, which the read-at-an-index module
  splits into one stage per operation. Three facts about those stages:

    * the first `dot_general` (`x @ W`) is, at the extended reals, the matrix product `Dense.rowsTimes`: the sum over the
      256 contracted entries, read at the indices the stage lemma names;
    * the stages from the edge list to `agg + b_conv` ARE the aggregation the kernel's host stretches compute —
      the same operations on the same records, literal for literal — applied to that product;
    * the last `dot_general` and the broadcast bias are the regression head `Dense.affineHead`.
-/
import proofs.«117768_j63780264346286_2_alg».proof.Proof.RefRead
import proofs.«117768_j63780264346286_2_alg».proof.Proof.Aggregation
import proofs.«117768_j63780264346286_2_alg».proof.Proof.DenseLayers

noncomputable section

namespace Cert.ReferenceIdeal.Whole

open Cert.ReferenceIdeal Cert.ReferenceIdeal.ReadP Idealize.ShloMosaic Idealize.ShloMosaic.TcCoe Idealize.SL.Sem
open Idealize.ShloMosaic.ValueIdx

/-- The host's `x @ W` is the matrix product, entry by entry. -/
theorem features_eq (x0 : (⟨S100000x256, .f32⟩ : BufTy).Contents (Elt Ideal)) (x2 : (⟨S256x16, .f32⟩ : BufTy).Contents (Elt Ideal)) :
    val_main_v30 (F := Ideal) x0 x2 = Dense.rowsTimes x0 x2 := by
  funext i
  rw [val_main_v30_apply]
  unfold Dense.rowsTimes
  refine Finset.sum_congr rfl fun k _ => ?_
  have el : lidx_main_v30 i k = ix2 (i 0) k := funext fun a => Fin.ext (by
    match a with
    | ⟨0, _⟩ => rfl
    | ⟨1, _⟩ => rfl)
  have er : ridx_main_v30 i k = ix2 k (i 1) := funext fun a => Fin.ext (by
    match a with
    | ⟨0, _⟩ => rfl
    | ⟨1, _⟩ => rfl)
  rw [el, er]
  rfl

set_option maxRecDepth 8192 in
/-- The stages between the two products are the aggregation, applied to the first product. -/
theorem between_eq (x0 : (⟨S100000x256, .f32⟩ : BufTy).Contents (Elt Ideal)) (x1 : (⟨S2x3200000, .i32⟩ : BufTy).Contents (Elt Ideal))
    (x2 : (⟨S256x16, .f32⟩ : BufTy).Contents (Elt Ideal)) (x3 : (⟨S16, .f32⟩ : BufTy).Contents (Elt Ideal)) :
    val_main_v46 (F := Ideal) x0 x1 x2 x3
      = Cert.KernelIdeal.Aggregation.aggregate (val_main_v30 (F := Ideal) x0 x2) x1 x3 := rfl

/-- The last product and the broadcast bias are the regression head, entry by entry. -/
theorem head_eq (x0 : (⟨S100000x256, .f32⟩ : BufTy).Contents (Elt Ideal)) (x1 : (⟨S2x3200000, .i32⟩ : BufTy).Contents (Elt Ideal))
    (x2 : (⟨S256x16, .f32⟩ : BufTy).Contents (Elt Ideal)) (x3 : (⟨S16, .f32⟩ : BufTy).Contents (Elt Ideal))
    (x4 : (⟨S16x1, .f32⟩ : BufTy).Contents (Elt Ideal)) (x5 : (⟨S1, .f32⟩ : BufTy).Contents (Elt Ideal)) :
    val_main_v50 (F := Ideal) x0 x1 x2 x3 x4 x5
      = Dense.affineHead (val_main_v46 (F := Ideal) x0 x1 x2 x3) x4 x5 := by
  funext i
  rw [val_main_v50_apply, val_main_v47_apply, val_main_v49_apply, val_main_v48_apply]
  unfold Dense.affineHead
  refine congrArg₂ (· + ·) (Finset.sum_congr rfl fun k _ => ?_) (congrArg x5 (funext fun a => Fin.ext ?_))
  · have el : lidx_main_v47 i k = ix2 (i 0) k := funext fun a => Fin.ext (by
      match a with
      | ⟨0, _⟩ => rfl
      | ⟨1, _⟩ => rfl)
    have er : ridx_main_v47 i k = ix2 k (i 1) := funext fun a => Fin.ext (by
      match a with
      | ⟨0, _⟩ => rfl
      | ⟨1, _⟩ => rfl)
    rw [el, er]
    rfl
  · match a with
    | ⟨0, _⟩ => rfl

/-- The reference's result term is the network's output of the argument arrays. -/
theorem result_value (m : (ℓ : Loc nD τ sig) → Buf (Elt Ideal) ℓ) (c : Dev nD) :
    Cert.ReferenceIdeal.ValueP.res_main_v50 m c
      = Dense.affineHead
          (Cert.KernelIdeal.Aggregation.aggregate
            (Dense.rowsTimes (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)) (m ((c.tc : Thread nD τ).loc main_arg5)) := by
  rw [val_main_v50_eq, head_eq, between_eq, features_eq]

end Cert.ReferenceIdeal.Whole

end
-- ==== Proof.lean ====
/-
  A graph-convolution regression network, its Pallas kernel against its jnp reference, over the extended reals.

  Both programs compute, from node features `x` (100000 × 256), an edge list (2 × 3200000), weights `W` (256 × 16), a bias
  `b_conv` (16), a head `W_fc` (16 × 1) and its bias `b_fc` (1):

      final = affineHead (aggregate (rowsTimes x W) edge_index b_conv) W_fc b_fc

  where `rowsTimes` is the matrix product, `aggregate` adds self loops, normalises by the inverse square roots of the
  in-degrees, gathers each edge's source row, scales it, scatter-adds it into the edge's target row and adds `b_conv`,
  and `affineHead` is the product with `W_fc` plus `b_fc`.

  The kernel computes the two dense layers in row blocks on the matrix unit (ten blocks of 10000 rows, then five blocks of
  20000 rows) with bf16 operands and an f32 accumulator, and runs `aggregate` on the host between them. The reference
  computes everything on the host, the two layers as `dot_general`s. At the extended reals a change of float format is the
  identity, the matrix unit's product into a zero accumulator and the host's `dot_general` are the same sum over the
  contracted index, and a tiling of the rows changes no entry; the aggregation is the same operations on the same
  records in both programs and is never opened. No law of arithmetic that could fail at an infinity is used, so the
  finiteness of the inputs is not needed for the values.

  The frames of the two kernel programs are the generated frame certificates; the reference's frame is its run with the
  result dropped. The idealization rewrote nothing, so the kernel's idealization is the kernel's own text read at the
  extended reals.
-/
import proofs.«117768_j63780264346286_2_alg».proof.Defs
import proofs.«117768_j63780264346286_2_alg».proof.Proof.Gen.Kernel
import proofs.«117768_j63780264346286_2_alg».proof.Proof.Gen.Kernel.Skeleton
import proofs.«117768_j63780264346286_2_alg».proof.Proof.Gen.Kernel.Launch
import proofs.«117768_j63780264346286_2_alg».proof.Proof.Gen.Kernel.Points
import proofs.«117768_j63780264346286_2_alg».proof.Proof.Gen.Kernel.Frame
import proofs.«117768_j63780264346286_2_alg».proof.Proof.Gen.KernelIdeal
import proofs.«117768_j63780264346286_2_alg».proof.Proof.Gen.KernelIdeal.Skeleton
import proofs.«117768_j63780264346286_2_alg».proof.Proof.Gen.KernelIdeal.Launch
import proofs.«117768_j63780264346286_2_alg».proof.Proof.Gen.KernelIdeal.Points
import proofs.«117768_j63780264346286_2_alg».proof.Proof.Gen.KernelIdeal.Frame
import proofs.«117768_j63780264346286_2_alg».proof.Proof.Gen.ReferenceIdeal
import proofs.«117768_j63780264346286_2_alg».proof.Proof.Gen.Pre_finite_inputs
import proofs.«117768_j63780264346286_2_alg».proof.Proof.RefRun
import proofs.«117768_j63780264346286_2_alg».proof.Proof.RefRead
import proofs.«117768_j63780264346286_2_alg».proof.Proof.KernelRun
import proofs.«117768_j63780264346286_2_alg».proof.Proof.ReferenceValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the network's output of those arguments in
    their result buffer: the kernel by its run read through its two launches and the host stretch between them, the
    reference by its run's term read stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Whole.result_value, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
